-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x128 .f32) (main_arg1 : IVec S2x320000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x256 : Shape := ⟨2, ![1, 256]⟩
abbrev S10000x256 : Shape := ⟨2, ![10000, 256]⟩
abbrev S2000x128 : Shape := ⟨2, ![2000, 128]⟩
abbrev S2000x256 : Shape := ⟨2, ![2000, 256]⟩
abbrev S320000x256 : Shape := ⟨2, ![320000, 256]⟩

abbrev nBuf : Space → Nat
  | .hbm => 66
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S_, .f32⟩
  | .hbm, ⟨28, _⟩ => ⟨S10000x128, .f32⟩
  | .hbm, ⟨29, _⟩ => ⟨S320000x1, .i32⟩
  | .hbm, ⟨30, _⟩ => ⟨S10000x128, .f32⟩
  | .hbm, ⟨31, _⟩ => ⟨S1x256, .f32⟩
  | .hbm, ⟨32, _⟩ => ⟨S1x256, .f32⟩
  | .hbm, ⟨33, _⟩ => ⟨S10000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S_, .f32⟩
  | .hbm, ⟨44, _⟩ => ⟨S10000x256, .f32⟩
  | .hbm, ⟨45, _⟩ => ⟨S320000x1, .i32⟩
  | .hbm, ⟨46, _⟩ => ⟨S10000x256, .f32⟩
  | .hbm, ⟨47, _⟩ => ⟨S1x256, .f32⟩
  | .hbm, ⟨48, _⟩ => ⟨S1x256, .f32⟩
  | .hbm, ⟨49, _⟩ => ⟨S10000x256, .f32⟩
  | .hbm, ⟨50, _⟩ => ⟨S_, .i32⟩
  | .hbm, ⟨51, _⟩ => ⟨S320000, .i32⟩
  | .hbm, ⟨52, _⟩ => ⟨S320000, .i1⟩
  | .hbm, ⟨53, _⟩ => ⟨S_, .i32⟩
  | .hbm, ⟨54, _⟩ => ⟨S320000, .i32⟩
  | .hbm, ⟨55, _⟩ => ⟨S320000, .i32⟩
  | .hbm, ⟨56, _⟩ => ⟨S320000, .i32⟩
  | .hbm, ⟨57, _⟩ => ⟨S320000x1, .i32⟩
  | .hbm, ⟨58, _⟩ => ⟨S320000x256, .f32⟩
  | .hbm, ⟨59, _⟩ => ⟨S_, .f32⟩
  | .hbm, ⟨60, _⟩ => ⟨S10000x256, .f32⟩
  | .hbm, ⟨61, _⟩ => ⟨S320000x1, .i32⟩
  | .hbm, ⟨62, _⟩ => ⟨S10000x256, .f32⟩
  | .hbm, ⟨63, _⟩ => ⟨S1x256, .f32⟩
  | .hbm, ⟨64, _⟩ => ⟨S1x256, .f32⟩
  | .hbm, ⟨65, _⟩ => ⟨S10000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S10000x256 : S_.BroadcastsInDim S10000x256 (![] : Fin 0 → Fin S10000x256.rank)
  shapeCasts_S2000x256_S2000x256 : S2000x256.ShapeCasts S2000x256
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S10000x256.size a
  hwx0_6 : ∀ i : grid0.Coords, EltTy.bits .f32 = 32 ∨ (Rect.block (s := S10000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S10000x256.size a
  hwx1_6 : ∀ i : grid1.Coords, EltTy.bits .f32 = 32 ∨ (Rect.block (s := S10000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S10000x256.size a
  hwx2_6 : ∀ i : grid2.Coords, EltTy.bits .f32 = 32 ∨ (Rect.block (s := S10000x256) S2000x256.size (cc2_transform_6 i) (hinb2_6 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x256 : Shape := ⟨2, ![10000, 256]⟩
abbrev S1x256 : Shape := ⟨2, ![1, 256]⟩
abbrev S320000x256 : Shape := ⟨2, ![320000, 256]⟩

abbrev nBuf : Space → Nat
  | .hbm => 102
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S_, .f32⟩
  | .hbm, ⟨28, _⟩ => ⟨S10000x128, .f32⟩
  | .hbm, ⟨29, _⟩ => ⟨S320000x1, .i32⟩
  | .hbm, ⟨30, _⟩ => ⟨S10000x128, .f32⟩
  | .hbm, ⟨31, _⟩ => ⟨S10000x128, .f32⟩
  | .hbm, ⟨32, _⟩ => ⟨S10000x256, .f32⟩
  | .hbm, ⟨33, _⟩ => ⟨S1x256, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000x256, .f32⟩
  | .hbm, ⟨38, _⟩ => ⟨S10000x256, .f32⟩
  | .hbm, ⟨39, _⟩ => ⟨S10000x256, .f32⟩
  | .hbm, ⟨40, _⟩ => ⟨S1x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x256, .f32⟩
  | .hbm, ⟨55, _⟩ => ⟨S_, .f32⟩
  | .hbm, ⟨56, _⟩ => ⟨S10000x256, .f32⟩
  | .hbm, ⟨57, _⟩ => ⟨S320000x1, .i32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S10000x256, .f32⟩
  | .hbm, ⟨66, _⟩ => ⟨S10000x256, .f32⟩
  | .hbm, ⟨67, _⟩ => ⟨S10000x256, .f32⟩
  | .hbm, ⟨68, _⟩ => ⟨S1x256, .f32⟩
  | .hbm, ⟨69, _⟩ => ⟨S10000x256, .f32⟩
  | .hbm, ⟨70, _⟩ => ⟨S10000x256, .f32⟩
  | .hbm, ⟨71, _⟩ => ⟨S_, .f32⟩
  | .hbm, ⟨72, _⟩ => ⟨S10000x256, .f32⟩
  | .hbm, ⟨73, _⟩ => ⟨S10000x256, .f32⟩
  | .hbm, ⟨74, _⟩ => ⟨S_, .i32⟩
  | .hbm, ⟨75, _⟩ => ⟨S320000, .i32⟩
  | .hbm, ⟨76, _⟩ => ⟨S320000, .i1⟩
  | .hbm, ⟨77, _⟩ => ⟨S_, .i32⟩
  | .hbm, ⟨78, _⟩ => ⟨S320000, .i32⟩
  | .hbm, ⟨79, _⟩ => ⟨S320000, .i32⟩
  | .hbm, ⟨80, _⟩ => ⟨S320000, .i32⟩
  | .hbm, ⟨81, _⟩ => ⟨S320000x1, .i32⟩
  | .hbm, ⟨82, _⟩ => ⟨S320000x256, .f32⟩
  | .hbm, ⟨83, _⟩ => ⟨S_, .f32⟩
  | .hbm, ⟨84, _⟩ => ⟨S10000x256, .f32⟩
  | .hbm, ⟨85, _⟩ => ⟨S320000x1, .i32⟩
  | .hbm, ⟨86, _⟩ => ⟨S10000x256, .f32⟩
  | .hbm, ⟨87, _⟩ => ⟨S10000x256, .f32⟩
  | .hbm, ⟨88, _⟩ => ⟨S10000x256, .f32⟩
  | .hbm, ⟨89, _⟩ => ⟨S1x256, .f32⟩
  | .hbm, ⟨90, _⟩ => ⟨S10000x256, .f32⟩
  | .hbm, ⟨91, _⟩ => ⟨S10000x256, .f32⟩
  | .hbm, ⟨92, _⟩ => ⟨S_, .f32⟩
  | .hbm, ⟨93, _⟩ => ⟨S10000x256, .f32⟩
  | .hbm, ⟨94, _⟩ => ⟨S10000x256, .f32⟩
  | .hbm, ⟨95, _⟩ => ⟨S10000x256, .f32⟩
  | .hbm, ⟨96, _⟩ => ⟨S1x256, .f32⟩
  | .hbm, ⟨97, _⟩ => ⟨S10000x256, .f32⟩
  | .hbm, ⟨98, _⟩ => ⟨S10000x256, .f32⟩
  | .hbm, ⟨99, _⟩ => ⟨S_, .f32⟩
  | .hbm, ⟨100, _⟩ => ⟨S10000x256, .f32⟩
  | .hbm, ⟨101, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_v45 : Ref sig .tc := ⟨.hbm, 73, rfl⟩
abbrev main_c_4 : Ref sig .tc := ⟨.hbm, 74, rfl⟩
abbrev main_v46 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call4_cst : Ref sig .tc := ⟨.hbm, 92, rfl⟩
abbrev main_call4_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call5_cst : Ref sig .tc := ⟨.hbm, 99, rfl⟩
abbrev main_call5_v0 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.KernelRun.lean ====
/-
  The kernel program's run, with the result's buffer kept.
  Every weakly fair execution of the program ends, nothing faulting, in a memory whose every unscoped buffer holds the last
  boundary's contents: the launch memory pushed through the three stretches of host operations and the three kernel
  regions in turn. Any property that follows from that is a post of the run; in particular the result array is the
  third region's output array as its write-backs leave it, and the fourteen argument arrays are as launched.
-/
import proofs.«147702_j18442589569879_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, to any post that holds of every memory whose unscoped buffers are at the last boundary's contents. -/
theorem run_to {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result named: the third region's output array after its write-backs, the arguments as launched. -/
theorem run_result : θ_run defs (onTc (τ := τ) (main (F := F))) ⟨m, fun _ => 0, ρ⟩ (fun r => ∀ c : Dev nD,
      r.2.mem ((c.tc : Thread nD τ).loc main_v42) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_to m ρ fun s h c =>
    ⟨(h c _ (mem_uc main_v42 (by decide))).trans (W6_arr m ρ c 6),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩

end Cert.KernelIdeal.RunValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«147702_j18442589569879_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.Layer.lean ====
/-
  The dense part of one layer of the network: two dense stages, 256 wide at their outputs, the first applied to the node
  features plus the aggregated neighbour features. Its value in a row depends on the two input arrays only through that
  row, so a block of rows of the inputs gives that block of rows of the result.
-/
import proofs.«147702_j18442589569879_1_alg».proof.Proof.LibDenseStage

noncomputable section

namespace Cert.Dense

open Idealize.ShloMosaic Idealize.ShloMosaic.ValueIdx Cert.LibDenseStage

/-- A layer's dense part: two stages, the first on the node features plus the aggregated neighbour features. -/
def layer (M K : Nat) (z a : FVec Ideal ⟨2, ![M, K]⟩ .f32) (w1 : FVec Ideal ⟨2, ![K, 256]⟩ .f32) (b1 : FVec Ideal ⟨2, ![1, 256]⟩ .f32)
    (w2 : FVec Ideal ⟨2, ![256, 256]⟩ .f32) (b2 : FVec Ideal ⟨2, ![1, 256]⟩ .f32) : FVec Ideal ⟨2, ![M, 256]⟩ .f32 :=
  stage M 256 256 (stage M K 256 (addf z a) w1 b1) w2 b2

/-- Row a' of the layer of a block is row a of the layer of the whole, when row a' of the block's two inputs is row a of
    the whole's and the weights and bias rows are the same. -/
theorem layer_rows (M M' K : Nat) (Z A : FVec Ideal ⟨2, ![M, K]⟩ .f32) (z a : FVec Ideal ⟨2, ![M', K]⟩ .f32)
    (W1 w1 : FVec Ideal ⟨2, ![K, 256]⟩ .f32) (B1 b1 : FVec Ideal ⟨2, ![1, 256]⟩ .f32)
    (W2 w2 : FVec Ideal ⟨2, ![256, 256]⟩ .f32) (B2 b2 : FVec Ideal ⟨2, ![1, 256]⟩ .f32)
    (r : Fin M) (p : Fin M') (hz : ∀ j : Fin K, z (ix2 p j) = Z (ix2 r j)) (ha : ∀ j : Fin K, a (ix2 p j) = A (ix2 r j))
    (hw1 : w1 = W1) (hb1 : b1 = B1) (hw2 : w2 = W2) (hb2 : b2 = B2) (q : Fin 256) :
    layer M' K z a w1 b1 w2 b2 (ix2 p q) = layer M K Z A W1 B1 W2 B2 (ix2 r q) := by
  subst hw1 hb1 hw2 hb2
  unfold layer
  exact stage_rows M 256 256 M' _ _ w2 b2 r p
    (fun k => stage_rows M K 256 M' (addf Z A) (addf z a) w1 b1 r p
      (fun j => by rw [addf_apply, addf_apply, hz j, ha j]) k) q

end Cert.Dense

end
-- ==== Proof.KernelPay.lean ====
/-
  What one grid point of each of the three fused kernels stores: from its 2000-row blocks z and agg of the node features and
  the aggregated neighbour features, the two weights whole and the two bias rows, the block
      stage (stage (z + agg) w1 b1) w2 b2
  of the layer's output — two dense stages, the first on the sum. The printed dimension records of the two products are
  the plain M×K by K×N ones.
-/
import proofs.«147702_j18442589569879_1_alg».proof.Proof.Gen.KernelIdeal.Skeleton
import proofs.«147702_j18442589569879_1_alg».proof.Proof.Layer

noncomputable section

namespace Cert.KernelIdeal.Pay

open Idealize.ShloMosaic Idealize.ShloMosaic.ValueIdx Cert.KernelIdeal Cert.KernelIdeal.Gen

theorem dot128 : dot_S2000x128_S128x256_S2000x256_1_0_0_1_n_n = DotDims.plain 2000 128 256 := rfl
theorem dot256 : dot_S2000x256_S256x256_S2000x256_1_0_0_1_n_n = DotDims.plain 2000 256 256 := rfl

/-- The first kernel's block, its input 128 wide. -/
theorem pay0 (z a : Vec Ideal S2000x128 .f32) (w1 : Vec Ideal S128x256 .f32) (b1 : Vec Ideal S1x256 .f32)
    (w2 : Vec Ideal S256x256 .f32) (b2 : Vec Ideal S1x256 .f32) :
    k0_pay1 (F := Ideal) z a w1 b1 w2 b2
      = Cert.LibDenseStage.stage 2000 256 256 (Cert.LibDenseStage.stage 2000 128 256 (addf z a) w1 b1) w2 b2 := by
  unfold k0_pay1
  dsimp only
  rw [shapeCast_self, dot128, dot256, Cert.LibDenseStage.stage_of_matmul 2000 128 256, Cert.LibDenseStage.stage_of_matmul 2000 256 256]

/-- The second kernel's block, its input 256 wide. -/
theorem pay1 (z a : Vec Ideal S2000x256 .f32) (w1 : Vec Ideal S256x256 .f32) (b1 : Vec Ideal S1x256 .f32)
    (w2 : Vec Ideal S256x256 .f32) (b2 : Vec Ideal S1x256 .f32) :
    k1_pay1 (F := Ideal) z a w1 b1 w2 b2
      = Cert.LibDenseStage.stage 2000 256 256 (Cert.LibDenseStage.stage 2000 256 256 (addf z a) w1 b1) w2 b2 := by
  unfold k1_pay1
  dsimp only
  rw [shapeCast_self, shapeCast_self, dot256, Cert.LibDenseStage.stage_of_matmul 2000 256 256, Cert.LibDenseStage.stage_of_matmul 2000 256 256]

/-- The third kernel's block: the second's text. -/
theorem pay2 (z a : Vec Ideal S2000x256 .f32) (w1 : Vec Ideal S256x256 .f32) (b1 : Vec Ideal S1x256 .f32)
    (w2 : Vec Ideal S256x256 .f32) (b2 : Vec Ideal S1x256 .f32) :
    k2_pay1 (F := Ideal) z a w1 b1 w2 b2
      = Cert.LibDenseStage.stage 2000 256 256 (Cert.LibDenseStage.stage 2000 256 256 (addf z a) w1 b1) w2 b2 := by
  unfold k2_pay1
  dsimp only
  rw [shapeCast_self, shapeCast_self, dot256, Cert.LibDenseStage.stage_of_matmul 2000 256 256, Cert.LibDenseStage.stage_of_matmul 2000 256 256]

end Cert.KernelIdeal.Pay

end
-- ==== Proof.Region0.lean ====
/-
  The first kernel region, from blocks to the whole array.
  The grid has five points; point t takes rows 2000·t … 2000·t + 1999 of the node features and of the aggregated neighbour
  features, the two weights and the two bias rows whole, and writes back rows 2000·t … 2000·t + 1999 of the output. What it
  writes is the layer's dense part of its blocks, and row a' of that is row 2000·t + a' of the dense part of the whole
  arrays. The five blocks of rows tile the 10000 rows, so after the region the output array is the layer's dense part of
  the arrays the region found.
-/
import proofs.«147702_j18442589569879_1_alg».proof.Proof.Gen.KernelIdeal.Frame
import proofs.«147702_j18442589569879_1_alg».proof.Proof.KernelPay

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- What the region leaves in its output array: the dense part of the layer, of the arrays as the region finds them. -/
def whole (c : Dev nD) : S10000x256.Idx → Elt Ideal .f32 :=
  Cert.Dense.layer 10000 128 (V c main_arg0) (V c main_v13) (V c main_arg2) (V c main_v14) (V c main_arg4) (V c main_v15)

/-- The body's stored block is the dense part of the layer, of the blocks it loaded. -/
theorem stored (x0 x1 : Vec Ideal S2000x128 .f32) (x2 : Vec Ideal S128x256 .f32) (x3 : Vec Ideal S1x256 .f32)
    (x4 : Vec Ideal S256x256 .f32) (x5 : Vec Ideal S1x256 .f32) :
    out0_6 (F := Ideal) x0 x1 x2 x3 x4 x5 = Cert.Dense.layer 2000 128 x0 x1 x2 x3 x4 x5 := by
  unfold out0_6
  rw [View.canon_unit_zero origin]
  simp only [View.ld_unit_zero (S := S2000x128) origin, View.ld_unit_zero (S := S128x256) origin,
    View.ld_unit_zero (S := S1x256) origin, View.ld_unit_zero (S := S256x256) origin]
  exact Cert.KernelIdeal.Pay.pay0 x0 x1 x2 x3 x4 x5

/-- The printed index maps over the five points: the two row-blocked inputs and the output are at block (t, 0), the four
    whole operands at block (0, 0). -/
theorem blocks_at : ∀ t : Fin cfg0.N, t.val ≤ 4
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the dense part of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6, stored]
  obtain ⟨ht, e00, e01, e10, e11, e20, e21, e30, e31, e40, e41, e50, e51, e60, e61⟩ := blocks_at t
  funext y
  obtain ⟨p, q, rfl⟩ : ∃ (p : Fin 2000) (q : Fin 256), y = ix2 p q := ⟨y 0, y 1, eq_ix2 y⟩
  have hp := p.isLt
  have hemb : ((cfg0.win 6).blk t).view.emb (ix2 p q) = ix2 (⟨t.val * 2000 + p.val, by omega⟩ : Fin 10000) q := by
    funext a; apply Fin.ext
    match a with
    | ⟨0, _⟩ => show win0_6.index t (0 : Fin 2) * 2000 + 1 * p.val = t.val * 2000 + p.val; rw [e60]; omega
    | ⟨1, _⟩ => show win0_6.index t (1 : Fin 2) * 256 + 1 * q.val = q.val; rw [e61]; omega
  show Cert.Dense.layer 2000 128 (iblk0 V c 0 t) (iblk0 V c 1 t) (iblk0 V c 2 t) (iblk0 V c 3 t) (iblk0 V c 4 t) (iblk0 V c 5 t) (ix2 p q)
    = whole V c (((cfg0.win 6).blk t).view.emb (ix2 p q))
  rw [hemb]
  unfold whole
  refine Cert.Dense.layer_rows 10000 2000 128 _ _ _ _ _ _ _ _ _ _ _ _ _ p ?_ ?_ ?_ ?_ ?_ ?_ q
  · intro j
    show V c main_arg0 (((cfg0.win 0).blk t).view.emb (ix2 p j)) = _
    refine congrArg (V c main_arg0) ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * j.val = j.val; rw [e01]; omega
  · intro j
    show V c main_v13 (((cfg0.win 1).blk t).view.emb (ix2 p j)) = _
    refine congrArg (V c main_v13) ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 128 + 1 * j.val = j.val; rw [e11]; omega
  · funext j
    show V c main_arg2 (((cfg0.win 2).blk t).view.emb j) = V c main_arg2 j
    refine congrArg (V c main_arg2) ?_
    funext a; apply Fin.ext
    match a with
    | ⟨0, _⟩ => show win0_2.index t (0 : Fin 2) * 128 + 1 * (j 0).val = (j 0).val; rw [e20]; omega
    | ⟨1, _⟩ => show win0_2.index t (1 : Fin 2) * 256 + 1 * (j 1).val = (j 1).val; rw [e21]; omega
  · funext j
    show V c main_v14 (((cfg0.win 3).blk t).view.emb j) = V c main_v14 j
    refine congrArg (V c main_v14) ?_
    funext a; apply Fin.ext
    match a with
    | ⟨0, _⟩ => show win0_3.index t (0 : Fin 2) * 1 + 1 * (j 0).val = (j 0).val; rw [e30]; omega
    | ⟨1, _⟩ => show win0_3.index t (1 : Fin 2) * 256 + 1 * (j 1).val = (j 1).val; rw [e31]; omega
  · funext j
    show V c main_arg4 (((cfg0.win 4).blk t).view.emb j) = V c main_arg4 j
    refine congrArg (V c main_arg4) ?_
    funext a; apply Fin.ext
    match a with
    | ⟨0, _⟩ => show win0_4.index t (0 : Fin 2) * 256 + 1 * (j 0).val = (j 0).val; rw [e40]; omega
    | ⟨1, _⟩ => show win0_4.index t (1 : Fin 2) * 256 + 1 * (j 1).val = (j 1).val; rw [e41]; omega
  · funext j
    show V c main_v15 (((cfg0.win 5).blk t).view.emb j) = V c main_v15 j
    refine congrArg (V c main_v15) ?_
    funext a; apply Fin.ext
    match a with
    | ⟨0, _⟩ => show win0_5.index t (0 : Fin 2) * 1 + 1 * (j 0).val = (j 0).val; rw [e50]; omega
    | ⟨1, _⟩ => show win0_5.index t (1 : Fin 2) * 256 + 1 * (j 1).val = (j 1).val; rw [e51]; omega

/-- An index of the output array is in point t's block iff each coordinate is in the block's range on its axis. -/
theorem mem_block (t : Fin cfg0.N) (i : S10000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v16).slice (win0_6.rect t)).set ↔ _
  rw [View.set_slice_whole, Rect.mem_set_unit]
  exact Iff.rfl

/-- Every row is in the block of the point numbered by its quotient by 2000. -/
theorem tiled (i : S10000x256.Idx) :
    ∃ t : Fin cfg0.N, (cfg0.win 6).flush t = true ∧ i ∈ ((cfg0.win 6).blk t).view.set := by
  have hi0 : (i 0).val < 10000 := (i 0).isLt
  have hi1 : (i 1).val < 256 := (i 1).isLt
  have hlt : (i 0).val / 2000 < 5 := by omega
  obtain ⟨ht, -, -, -, -, -, -, -, -, -, -, -, -, e60, e61⟩ := blocks_at (⟨(i 0).val / 2000, hlt⟩ : Fin cfg0.N)
  have e60' : win0_6.index (⟨(i 0).val / 2000, hlt⟩ : Fin cfg0.N) (0 : Fin 2) = (i 0).val / 2000 := e60
  refine ⟨⟨(i 0).val / 2000, hlt⟩, flush0_6 _, ?_⟩
  rw [mem_block]
  intro a
  match a with
  | ⟨0, _⟩ =>
    show win0_6.index (⟨(i 0).val / 2000, hlt⟩ : Fin cfg0.N) (0 : Fin 2) * 2000 ≤ (i 0).val
      ∧ (i 0).val < win0_6.index (⟨(i 0).val / 2000, hlt⟩ : Fin cfg0.N) (0 : Fin 2) * 2000 + 2000
    rw [e60']; omega
  | ⟨1, _⟩ =>
    show win0_6.index (⟨(i 0).val / 2000, hlt⟩ : Fin cfg0.N) (1 : Fin 2) * 256 ≤ (i 1).val
      ∧ (i 1).val < win0_6.index (⟨(i 0).val / 2000, hlt⟩ : Fin cfg0.N) (1 : Fin 2) * 256 + 256
    rw [e61]; omega

/-- The output array after the region. -/
theorem array_eq (c : Dev nD) : (dat0 V c).arrAt 6 cfg0.N = whole V c :=
  (dat0 V c).arrAt_eq_of_cover 6 (whole V c) (fun t _ => flushed_eq V c t) (tiled)

end Cert.KernelIdeal.Region0

end
-- ==== Proof.Region1.lean ====
/-
  The second kernel region, from blocks to the whole array.
  The grid has five points; point t takes rows 2000·t … 2000·t + 1999 of the node features and of the aggregated neighbour
  features, the two weights and the two bias rows whole, and writes back rows 2000·t … 2000·t + 1999 of the output. What it
  writes is the layer's dense part of its blocks, and row a' of that is row 2000·t + a' of the dense part of the whole
  arrays. The five blocks of rows tile the 10000 rows, so after the region the output array is the layer's dense part of
  the arrays the region found.
-/
import proofs.«147702_j18442589569879_1_alg».proof.Proof.Gen.KernelIdeal.Frame
import proofs.«147702_j18442589569879_1_alg».proof.Proof.KernelPay

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- What the region leaves in its output array: the dense part of the layer, of the arrays as the region finds them. -/
def whole (c : Dev nD) : S10000x256.Idx → Elt Ideal .f32 :=
  Cert.Dense.layer 10000 256 (V c main_v16) (V c main_v26) (V c main_arg6) (V c main_v27) (V c main_arg8) (V c main_v28)

/-- The body's stored block is the dense part of the layer, of the blocks it loaded. -/
theorem stored (x0 x1 : Vec Ideal S2000x256 .f32) (x2 : Vec Ideal S256x256 .f32) (x3 : Vec Ideal S1x256 .f32)
    (x4 : Vec Ideal S256x256 .f32) (x5 : Vec Ideal S1x256 .f32) :
    out1_6 (F := Ideal) x0 x1 x2 x3 x4 x5 = Cert.Dense.layer 2000 256 x0 x1 x2 x3 x4 x5 := by
  unfold out1_6
  rw [View.canon_unit_zero origin]
  simp only [View.ld_unit_zero (S := S2000x256) origin, View.ld_unit_zero (S := S256x256) origin,
    View.ld_unit_zero (S := S1x256) origin, View.ld_unit_zero (S := S256x256) origin]
  exact Cert.KernelIdeal.Pay.pay1 x0 x1 x2 x3 x4 x5

/-- The printed index maps over the five points: the two row-blocked inputs and the output are at block (t, 0), the four
    whole operands at block (0, 0). -/
theorem blocks_at : ∀ t : Fin cfg1.N, t.val ≤ 4
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the dense part of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6, stored]
  obtain ⟨ht, e00, e01, e10, e11, e20, e21, e30, e31, e40, e41, e50, e51, e60, e61⟩ := blocks_at t
  funext y
  obtain ⟨p, q, rfl⟩ : ∃ (p : Fin 2000) (q : Fin 256), y = ix2 p q := ⟨y 0, y 1, eq_ix2 y⟩
  have hp := p.isLt
  have hemb : ((cfg1.win 6).blk t).view.emb (ix2 p q) = ix2 (⟨t.val * 2000 + p.val, by omega⟩ : Fin 10000) q := by
    funext a; apply Fin.ext
    match a with
    | ⟨0, _⟩ => show win1_6.index t (0 : Fin 2) * 2000 + 1 * p.val = t.val * 2000 + p.val; rw [e60]; omega
    | ⟨1, _⟩ => show win1_6.index t (1 : Fin 2) * 256 + 1 * q.val = q.val; rw [e61]; omega
  show Cert.Dense.layer 2000 256 (iblk1 V c 0 t) (iblk1 V c 1 t) (iblk1 V c 2 t) (iblk1 V c 3 t) (iblk1 V c 4 t) (iblk1 V c 5 t) (ix2 p q)
    = whole V c (((cfg1.win 6).blk t).view.emb (ix2 p q))
  rw [hemb]
  unfold whole
  refine Cert.Dense.layer_rows 10000 2000 256 _ _ _ _ _ _ _ _ _ _ _ _ _ p ?_ ?_ ?_ ?_ ?_ ?_ q
  · intro j
    show V c main_v16 (((cfg1.win 0).blk t).view.emb (ix2 p j)) = _
    refine congrArg (V c main_v16) ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 256 + 1 * j.val = j.val; rw [e01]; omega
  · intro j
    show V c main_v26 (((cfg1.win 1).blk t).view.emb (ix2 p j)) = _
    refine congrArg (V c main_v26) ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 256 + 1 * j.val = j.val; rw [e11]; omega
  · funext j
    show V c main_arg6 (((cfg1.win 2).blk t).view.emb j) = V c main_arg6 j
    refine congrArg (V c main_arg6) ?_
    funext a; apply Fin.ext
    match a with
    | ⟨0, _⟩ => show win1_2.index t (0 : Fin 2) * 256 + 1 * (j 0).val = (j 0).val; rw [e20]; omega
    | ⟨1, _⟩ => show win1_2.index t (1 : Fin 2) * 256 + 1 * (j 1).val = (j 1).val; rw [e21]; omega
  · funext j
    show V c main_v27 (((cfg1.win 3).blk t).view.emb j) = V c main_v27 j
    refine congrArg (V c main_v27) ?_
    funext a; apply Fin.ext
    match a with
    | ⟨0, _⟩ => show win1_3.index t (0 : Fin 2) * 1 + 1 * (j 0).val = (j 0).val; rw [e30]; omega
    | ⟨1, _⟩ => show win1_3.index t (1 : Fin 2) * 256 + 1 * (j 1).val = (j 1).val; rw [e31]; omega
  · funext j
    show V c main_arg8 (((cfg1.win 4).blk t).view.emb j) = V c main_arg8 j
    refine congrArg (V c main_arg8) ?_
    funext a; apply Fin.ext
    match a with
    | ⟨0, _⟩ => show win1_4.index t (0 : Fin 2) * 256 + 1 * (j 0).val = (j 0).val; rw [e40]; omega
    | ⟨1, _⟩ => show win1_4.index t (1 : Fin 2) * 256 + 1 * (j 1).val = (j 1).val; rw [e41]; omega
  · funext j
    show V c main_v28 (((cfg1.win 5).blk t).view.emb j) = V c main_v28 j
    refine congrArg (V c main_v28) ?_
    funext a; apply Fin.ext
    match a with
    | ⟨0, _⟩ => show win1_5.index t (0 : Fin 2) * 1 + 1 * (j 0).val = (j 0).val; rw [e50]; omega
    | ⟨1, _⟩ => show win1_5.index t (1 : Fin 2) * 256 + 1 * (j 1).val = (j 1).val; rw [e51]; omega

/-- An index of the output array is in point t's block iff each coordinate is in the block's range on its axis. -/
theorem mem_block (t : Fin cfg1.N) (i : S10000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v29).slice (win1_6.rect t)).set ↔ _
  rw [View.set_slice_whole, Rect.mem_set_unit]
  exact Iff.rfl

/-- Every row is in the block of the point numbered by its quotient by 2000. -/
theorem tiled (i : S10000x256.Idx) :
    ∃ t : Fin cfg1.N, (cfg1.win 6).flush t = true ∧ i ∈ ((cfg1.win 6).blk t).view.set := by
  have hi0 : (i 0).val < 10000 := (i 0).isLt
  have hi1 : (i 1).val < 256 := (i 1).isLt
  have hlt : (i 0).val / 2000 < 5 := by omega
  obtain ⟨ht, -, -, -, -, -, -, -, -, -, -, -, -, e60, e61⟩ := blocks_at (⟨(i 0).val / 2000, hlt⟩ : Fin cfg1.N)
  have e60' : win1_6.index (⟨(i 0).val / 2000, hlt⟩ : Fin cfg1.N) (0 : Fin 2) = (i 0).val / 2000 := e60
  refine ⟨⟨(i 0).val / 2000, hlt⟩, flush1_6 _, ?_⟩
  rw [mem_block]
  intro a
  match a with
  | ⟨0, _⟩ =>
    show win1_6.index (⟨(i 0).val / 2000, hlt⟩ : Fin cfg1.N) (0 : Fin 2) * 2000 ≤ (i 0).val
      ∧ (i 0).val < win1_6.index (⟨(i 0).val / 2000, hlt⟩ : Fin cfg1.N) (0 : Fin 2) * 2000 + 2000
    rw [e60']; omega
  | ⟨1, _⟩ =>
    show win1_6.index (⟨(i 0).val / 2000, hlt⟩ : Fin cfg1.N) (1 : Fin 2) * 256 ≤ (i 1).val
      ∧ (i 1).val < win1_6.index (⟨(i 0).val / 2000, hlt⟩ : Fin cfg1.N) (1 : Fin 2) * 256 + 256
    rw [e61]; omega

/-- The output array after the region. -/
theorem array_eq (c : Dev nD) : (dat1 V c).arrAt 6 cfg1.N = whole V c :=
  (dat1 V c).arrAt_eq_of_cover 6 (whole V c) (fun t _ => flushed_eq V c t) (tiled)

end Cert.KernelIdeal.Region1

end
-- ==== Proof.Region2.lean ====
/-
  The third kernel region, from blocks to the whole array.
  The grid has five points; point t takes rows 2000·t … 2000·t + 1999 of the node features and of the aggregated neighbour
  features, the two weights and the two bias rows whole, and writes back rows 2000·t … 2000·t + 1999 of the output. What it
  writes is the layer's dense part of its blocks, and row a' of that is row 2000·t + a' of the dense part of the whole
  arrays. The five blocks of rows tile the 10000 rows, so after the region the output array is the layer's dense part of
  the arrays the region found.
-/
import proofs.«147702_j18442589569879_1_alg».proof.Proof.Gen.KernelIdeal.Frame
import proofs.«147702_j18442589569879_1_alg».proof.Proof.KernelPay

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- What the region leaves in its output array: the dense part of the layer, of the arrays as the region finds them. -/
def whole (c : Dev nD) : S10000x256.Idx → Elt Ideal .f32 :=
  Cert.Dense.layer 10000 256 (V c main_v29) (V c main_v39) (V c main_arg10) (V c main_v40) (V c main_arg12) (V c main_v41)

/-- The body's stored block is the dense part of the layer, of the blocks it loaded. -/
theorem stored (x0 x1 : Vec Ideal S2000x256 .f32) (x2 : Vec Ideal S256x256 .f32) (x3 : Vec Ideal S1x256 .f32)
    (x4 : Vec Ideal S256x256 .f32) (x5 : Vec Ideal S1x256 .f32) :
    out2_6 (F := Ideal) x0 x1 x2 x3 x4 x5 = Cert.Dense.layer 2000 256 x0 x1 x2 x3 x4 x5 := by
  unfold out2_6
  rw [View.canon_unit_zero origin]
  simp only [View.ld_unit_zero (S := S2000x256) origin, View.ld_unit_zero (S := S256x256) origin,
    View.ld_unit_zero (S := S1x256) origin, View.ld_unit_zero (S := S256x256) origin]
  exact Cert.KernelIdeal.Pay.pay2 x0 x1 x2 x3 x4 x5

/-- The printed index maps over the five points: the two row-blocked inputs and the output are at block (t, 0), the four
    whole operands at block (0, 0). -/
theorem blocks_at : ∀ t : Fin cfg2.N, t.val ≤ 4
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the dense part of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6, stored]
  obtain ⟨ht, e00, e01, e10, e11, e20, e21, e30, e31, e40, e41, e50, e51, e60, e61⟩ := blocks_at t
  funext y
  obtain ⟨p, q, rfl⟩ : ∃ (p : Fin 2000) (q : Fin 256), y = ix2 p q := ⟨y 0, y 1, eq_ix2 y⟩
  have hp := p.isLt
  have hemb : ((cfg2.win 6).blk t).view.emb (ix2 p q) = ix2 (⟨t.val * 2000 + p.val, by omega⟩ : Fin 10000) q := by
    funext a; apply Fin.ext
    match a with
    | ⟨0, _⟩ => show win2_6.index t (0 : Fin 2) * 2000 + 1 * p.val = t.val * 2000 + p.val; rw [e60]; omega
    | ⟨1, _⟩ => show win2_6.index t (1 : Fin 2) * 256 + 1 * q.val = q.val; rw [e61]; omega
  show Cert.Dense.layer 2000 256 (iblk2 V c 0 t) (iblk2 V c 1 t) (iblk2 V c 2 t) (iblk2 V c 3 t) (iblk2 V c 4 t) (iblk2 V c 5 t) (ix2 p q)
    = whole V c (((cfg2.win 6).blk t).view.emb (ix2 p q))
  rw [hemb]
  unfold whole
  refine Cert.Dense.layer_rows 10000 2000 256 _ _ _ _ _ _ _ _ _ _ _ _ _ p ?_ ?_ ?_ ?_ ?_ ?_ q
  · intro j
    show V c main_v29 (((cfg2.win 0).blk t).view.emb (ix2 p j)) = _
    refine congrArg (V c main_v29) ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 256 + 1 * j.val = j.val; rw [e01]; omega
  · intro j
    show V c main_v39 (((cfg2.win 1).blk t).view.emb (ix2 p j)) = _
    refine congrArg (V c main_v39) ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 256 + 1 * j.val = j.val; rw [e11]; omega
  · funext j
    show V c main_arg10 (((cfg2.win 2).blk t).view.emb j) = V c main_arg10 j
    refine congrArg (V c main_arg10) ?_
    funext a; apply Fin.ext
    match a with
    | ⟨0, _⟩ => show win2_2.index t (0 : Fin 2) * 256 + 1 * (j 0).val = (j 0).val; rw [e20]; omega
    | ⟨1, _⟩ => show win2_2.index t (1 : Fin 2) * 256 + 1 * (j 1).val = (j 1).val; rw [e21]; omega
  · funext j
    show V c main_v40 (((cfg2.win 3).blk t).view.emb j) = V c main_v40 j
    refine congrArg (V c main_v40) ?_
    funext a; apply Fin.ext
    match a with
    | ⟨0, _⟩ => show win2_3.index t (0 : Fin 2) * 1 + 1 * (j 0).val = (j 0).val; rw [e30]; omega
    | ⟨1, _⟩ => show win2_3.index t (1 : Fin 2) * 256 + 1 * (j 1).val = (j 1).val; rw [e31]; omega
  · funext j
    show V c main_arg12 (((cfg2.win 4).blk t).view.emb j) = V c main_arg12 j
    refine congrArg (V c main_arg12) ?_
    funext a; apply Fin.ext
    match a with
    | ⟨0, _⟩ => show win2_4.index t (0 : Fin 2) * 256 + 1 * (j 0).val = (j 0).val; rw [e40]; omega
    | ⟨1, _⟩ => show win2_4.index t (1 : Fin 2) * 256 + 1 * (j 1).val = (j 1).val; rw [e41]; omega
  · funext j
    show V c main_v41 (((cfg2.win 5).blk t).view.emb j) = V c main_v41 j
    refine congrArg (V c main_v41) ?_
    funext a; apply Fin.ext
    match a with
    | ⟨0, _⟩ => show win2_5.index t (0 : Fin 2) * 1 + 1 * (j 0).val = (j 0).val; rw [e50]; omega
    | ⟨1, _⟩ => show win2_5.index t (1 : Fin 2) * 256 + 1 * (j 1).val = (j 1).val; rw [e51]; omega

/-- An index of the output array is in point t's block iff each coordinate is in the block's range on its axis. -/
theorem mem_block (t : Fin cfg2.N) (i : S10000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v42).slice (win2_6.rect t)).set ↔ _
  rw [View.set_slice_whole, Rect.mem_set_unit]
  exact Iff.rfl

/-- Every row is in the block of the point numbered by its quotient by 2000. -/
theorem tiled (i : S10000x256.Idx) :
    ∃ t : Fin cfg2.N, (cfg2.win 6).flush t = true ∧ i ∈ ((cfg2.win 6).blk t).view.set := by
  have hi0 : (i 0).val < 10000 := (i 0).isLt
  have hi1 : (i 1).val < 256 := (i 1).isLt
  have hlt : (i 0).val / 2000 < 5 := by omega
  obtain ⟨ht, -, -, -, -, -, -, -, -, -, -, -, -, e60, e61⟩ := blocks_at (⟨(i 0).val / 2000, hlt⟩ : Fin cfg2.N)
  have e60' : win2_6.index (⟨(i 0).val / 2000, hlt⟩ : Fin cfg2.N) (0 : Fin 2) = (i 0).val / 2000 := e60
  refine ⟨⟨(i 0).val / 2000, hlt⟩, flush2_6 _, ?_⟩
  rw [mem_block]
  intro a
  match a with
  | ⟨0, _⟩ =>
    show win2_6.index (⟨(i 0).val / 2000, hlt⟩ : Fin cfg2.N) (0 : Fin 2) * 2000 ≤ (i 0).val
      ∧ (i 0).val < win2_6.index (⟨(i 0).val / 2000, hlt⟩ : Fin cfg2.N) (0 : Fin 2) * 2000 + 2000
    rw [e60']; omega
  | ⟨1, _⟩ =>
    show win2_6.index (⟨(i 0).val / 2000, hlt⟩ : Fin cfg2.N) (1 : Fin 2) * 256 ≤ (i 1).val
      ∧ (i 1).val < win2_6.index (⟨(i 0).val / 2000, hlt⟩ : Fin cfg2.N) (1 : Fin 2) * 256 + 256
    rw [e61]; omega

/-- The output array after the region. -/
theorem array_eq (c : Dev nD) : (dat2 V c).arrAt 6 cfg2.N = whole V c :=
  (dat2 V c).arrAt_eq_of_cover 6 (whole V c) (fun t _ => flushed_eq V c t) (tiled)

end Cert.KernelIdeal.Region2

end
-- ==== Proof.RefNet.lean ====
/-
  The reference network, layer by layer.
  A layer takes the node features z (10000 rows), the edge list e, two weights and two biases. Its aggregation stage sums,
  into each destination node's row, the rows of z at the sources of the edges that end there (a gather at the sources'
  indices, negative ones counted from the end, then a scatter that adds into an array of zeros at the destinations'
  indices). Its dense part is two stages on z plus that sum, each bias a vector made a one-row array.
  The network is three layers, the first 128 wide at its input, the others 256; the edge list is the same in all three.
  Each of the reference program's three layer results is the layer of the previous one.
-/
import proofs.«147702_j18442589569879_1_alg».proof.Proof.Gen.ReferenceIdeal.Read
import proofs.«147702_j18442589569879_1_alg».proof.Proof.Layer

noncomputable section

namespace Cert.ReferenceIdeal.Net

open Idealize.ShloMosaic Idealize.ShloMosaic.ValueIdx Cert.ReferenceIdeal Cert.ReferenceIdeal.Read
open Cert.ReferenceIdeal.Facts₀ Cert.ReferenceIdeal.Facts

/-- A bias vector as a one-row array. -/
def row (b : (⟨S256, .f32⟩ : BufTy).Contents (Elt Ideal)) : (⟨S1x256, .f32⟩ : BufTy).Contents (Elt Ideal) :=
  broadcastInDim S1x256 ![1] bcast_S256_S1x256_1 b

/-- The neighbours' sum of 128-wide features. -/
def agg128 (z : (⟨S10000x128, .f32⟩ : BufTy).Contents (Elt Ideal)) (e : (⟨S2x320000, .i32⟩ : BufTy).Contents (Elt Ideal)) :
    (⟨S10000x128, .f32⟩ : BufTy).Contents (Elt Ideal) :=
  val_main_v13 (F := Ideal) z e

/-- The neighbours' sum of 256-wide features. -/
def agg256 (z : (⟨S10000x256, .f32⟩ : BufTy).Contents (Elt Ideal)) (e : (⟨S2x320000, .i32⟩ : BufTy).Contents (Elt Ideal)) :
    (⟨S10000x256, .f32⟩ : BufTy).Contents (Elt Ideal) :=
  Host.scatterAdd (F := Ideal) (φ := .f32) scatter_S10000x256_S320000x1_S320000x256_1_0_0_1 (val_main_v32 (F := Ideal)) (val_main_v33 (F := Ideal) e)
    (Host.gather gather_S10000x256_S320000x1_S320000x256_1_0_n_n_0_1_1256 z (val_main_v30 (F := Ideal) e))

/-- The first layer. -/
def layer128 (z : (⟨S10000x128, .f32⟩ : BufTy).Contents (Elt Ideal)) (e : (⟨S2x320000, .i32⟩ : BufTy).Contents (Elt Ideal))
    (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) :
    (⟨S10000x256, .f32⟩ : BufTy).Contents (Elt Ideal) :=
  Cert.LibDenseStage.stage 10000 256 256 (Cert.LibDenseStage.stage 10000 128 256 (addf z (agg128 z e)) w1 (row b1)) w2 (row b2)

/-- A later layer. -/
def layer256 (z : (⟨S10000x256, .f32⟩ : BufTy).Contents (Elt Ideal)) (e : (⟨S2x320000, .i32⟩ : BufTy).Contents (Elt Ideal))
    (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) :
    (⟨S10000x256, .f32⟩ : BufTy).Contents (Elt Ideal) :=
  Cert.LibDenseStage.stage 10000 256 256 (Cert.LibDenseStage.stage 10000 256 256 (addf z (agg256 z e)) w1 (row b1)) w2 (row b2)

theorem dotR128 : dot_S10000x128_S128x256_S10000x256_1_0_0_1_n_n = DotDims.plain 10000 128 256 := rfl
theorem dotR256 : dot_S10000x256_S256x256_S10000x256_1_0_0_1_n_n = DotDims.plain 10000 256 256 := rfl

variable (x0 : (⟨S10000x128, .f32⟩ : BufTy).Contents (Elt Ideal)) (x1 : (⟨S2x320000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))

/-- The reference's first layer result. -/
theorem v24_eq : val_main_v24 (F := Ideal) x0 x1 x2 x3 x4 x5 = layer128 x0 x1 x2 x3 x4 x5 := by
  unfold val_main_v24 val_main_v23 val_main_v22 val_main_v21 val_main_v20 val_main_v19 val_main_v18 val_main_v17 val_main_v16
    val_main_v15 val_main_v14 val_main_call0_v0 val_main_call0_cst val_main_call1_v0 val_main_call1_cst
  rw [dotR128, dotR256, Cert.LibDenseStage.stage_of_dotGeneral 10000 128 256, Cert.LibDenseStage.stage_of_dotGeneral 10000 256 256]
  rfl

/-- The reference's second layer result. -/
theorem v45_eq : val_main_v45 (F := Ideal) x0 x1 x2 x3 x4 x5 x6 x7 x8 x9
    = layer256 (val_main_v24 (F := Ideal) x0 x1 x2 x3 x4 x5) x1 x6 x7 x8 x9 := by
  unfold val_main_v45 val_main_v44 val_main_v43 val_main_v42 val_main_v41 val_main_v40 val_main_v39 val_main_v38 val_main_v37
    val_main_v36 val_main_v35 val_main_call2_v0 val_main_call2_cst val_main_call3_v0 val_main_call3_cst
  rw [dotR256, Cert.LibDenseStage.stage_of_dotGeneral 10000 256 256, Cert.LibDenseStage.stage_of_dotGeneral 10000 256 256]
  rfl

/-- The reference's third layer result, the program's result. -/
theorem v66_eq : val_main_v66 (F := Ideal) x0 x1 x2 x3 x4 x5 x6 x7 x8 x9 x10 x11 x12 x13
    = layer256 (val_main_v45 (F := Ideal) x0 x1 x2 x3 x4 x5 x6 x7 x8 x9) x1 x10 x11 x12 x13 := by
  unfold val_main_v66 val_main_v65 val_main_v64 val_main_v63 val_main_v62 val_main_v61 val_main_v60 val_main_v59 val_main_v58
    val_main_v57 val_main_v56 val_main_call4_v0 val_main_call4_cst val_main_call5_v0 val_main_call5_cst
  rw [dotR256, Cert.LibDenseStage.stage_of_dotGeneral 10000 256 256, Cert.LibDenseStage.stage_of_dotGeneral 10000 256 256]
  rfl

/-- The whole network. -/
def net : (⟨S10000x256, .f32⟩ : BufTy).Contents (Elt Ideal) :=
  layer256 (layer256 (layer128 x0 x1 x2 x3 x4 x5) x1 x6 x7 x8 x9) x1 x10 x11 x12 x13

/-- The reference's result is the network of its arguments. -/
theorem result_eq : val_main_v66 (F := Ideal) x0 x1 x2 x3 x4 x5 x6 x7 x8 x9 x10 x11 x12 x13
    = net x0 x1 x2 x3 x4 x5 x6 x7 x8 x9 x10 x11 x12 x13 := by
  rw [v66_eq, v45_eq, v24_eq]; rfl

end Cert.ReferenceIdeal.Net

end
-- ==== Proof.LibLayout.lean ====
/-
  Two small facts about arrays.
  * A vector of length a made a one-row matrix [1, a]: by a shape cast, or by broadcasting it along the last axis — the
    same array, entry (0, i) being entry i of the vector.
  * On the extended reals x + 0 = x for every x, the infinities included; so adding an array that is 0 everywhere
    changes nothing.
-/
import Idealize.ShloMosaic.Lib.Pipeline.Value
import Idealize.ShloMosaic.Lib.ValueLayout
import Idealize.ShloMosaic.PureOps.Ideal.Laws

noncomputable section

namespace Cert.LibLayout

open Idealize.ShloMosaic Idealize.ShloMosaic.ValueIdx

/-- The one-row matrix of a vector, by a cast or by a broadcast. -/
theorem shapeCast_eq_broadcastInDim_row {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply (![1] : Fin 1 → Fin 2) h' x (ix2 u i) (ix1 i) fun ax => ?_).symm
  match ax with
  | ⟨0, _⟩ =>
    show i.val = if a = 1 then 0 else i.val
    split
    · have := i.isLt; omega
    · rfl

/-- An array that is 0 everywhere. -/
def IsZero {s : Shape} (z : FVec Ideal s .f32) : Prop := ∀ j, z j = 0

/-- Adding an everywhere-zero array. -/
theorem addf_zero {s : Shape} (y z : FVec Ideal s .f32) (hz : IsZero z) : addf y z = y :=
  funext fun j => by rw [addf_apply, hz j, add_zero]

end Cert.LibLayout

end
-- ==== Proof.KernelNet.lean ====
/-
  The kernel program's result as the network of its arguments.
  The program alternates stretches of host operations with the three kernel regions. Each stretch recomputes, from the edge
  list, the sources' and destinations' indices, gathers and scatter-adds the current node features into the aggregated
  neighbour features, and makes the layer's two bias vectors one-row arrays; it touches no argument and no earlier
  result. Each region then leaves in its output array the layer's dense part of what it found (the three region modules).
  So, walking the boundaries in order: after the first region the features are the first layer of the arguments, after the
  second the second layer of those, and the result is the third — the reference network, with the aggregation spelled by
  the same operations and the bias row by a shape cast where the reference broadcasts.
-/
import proofs.«147702_j18442589569879_1_alg».proof.Proof.Gen.KernelIdeal.Frame
import proofs.«147702_j18442589569879_1_alg».proof.Proof.Region0
import proofs.«147702_j18442589569879_1_alg».proof.Proof.Region1
import proofs.«147702_j18442589569879_1_alg».proof.Proof.Region2
import proofs.«147702_j18442589569879_1_alg».proof.Proof.RefNet
import proofs.«147702_j18442589569879_1_alg».proof.Proof.LibLayout
import Idealize.ShloMosaic.Lib.StableHlo.Run

set_option maxRecDepth 16384

noncomputable section

namespace Cert.KernelIdeal.Net

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The first layer of the arguments. -/
abbrev first (c : Dev nD) := Cert.ReferenceIdeal.Net.layer128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The second layer. -/
abbrev second (c : Dev nD) := Cert.ReferenceIdeal.Net.layer256 (first m c) (m ((c : Thread nD τ).loc main_arg1)) (m ((c : Thread nD τ).loc main_arg6)) (m ((c : Thread nD τ).loc main_arg7)) (m ((c : Thread nD τ).loc main_arg8)) (m ((c : Thread nD τ).loc main_arg9))

/-- A vector reshaped to one row is the reference's one-row broadcast of it. -/
theorem row_of_reshape (b : (⟨S256, .f32⟩ : BufTy).Contents (Elt Ideal)) :
    shapeCast S1x256 b shapeCasts_S256_S1x256 = Cert.ReferenceIdeal.Net.row b :=
  Cert.LibLayout.shapeCast_eq_broadcastInDim_row b _ _

/-! ## Entering the first region -/

theorem at1_main_arg0 (c : Dev nD) : V1 m ρ c main_arg0 = (m ((c : Thread nD τ).loc main_arg0)) := by
  show StableHlo.after hostOps0 (W0 m ρ c) (Proc.devRef .tc main_arg0) = _
  after_results

theorem at1_main_arg2 (c : Dev nD) : V1 m ρ c main_arg2 = (m ((c : Thread nD τ).loc main_arg2)) := by
  show StableHlo.after hostOps0 (W0 m ρ c) (Proc.devRef .tc main_arg2) = _
  after_results

theorem at1_main_arg4 (c : Dev nD) : V1 m ρ c main_arg4 = (m ((c : Thread nD τ).loc main_arg4)) := by
  show StableHlo.after hostOps0 (W0 m ρ c) (Proc.devRef .tc main_arg4) = _
  after_results

theorem at1_main_arg6 (c : Dev nD) : V1 m ρ c main_arg6 = (m ((c : Thread nD τ).loc main_arg6)) := by
  show StableHlo.after hostOps0 (W0 m ρ c) (Proc.devRef .tc main_arg6) = _
  after_results

theorem at1_main_arg7 (c : Dev nD) : V1 m ρ c main_arg7 = (m ((c : Thread nD τ).loc main_arg7)) := by
  show StableHlo.after hostOps0 (W0 m ρ c) (Proc.devRef .tc main_arg7) = _
  after_results

theorem at1_main_arg8 (c : Dev nD) : V1 m ρ c main_arg8 = (m ((c : Thread nD τ).loc main_arg8)) := by
  show StableHlo.after hostOps0 (W0 m ρ c) (Proc.devRef .tc main_arg8) = _
  after_results

theorem at1_main_arg9 (c : Dev nD) : V1 m ρ c main_arg9 = (m ((c : Thread nD τ).loc main_arg9)) := by
  show StableHlo.after hostOps0 (W0 m ρ c) (Proc.devRef .tc main_arg9) = _
  after_results

theorem at1_main_arg10 (c : Dev nD) : V1 m ρ c main_arg10 = (m ((c : Thread nD τ).loc main_arg10)) := by
  show StableHlo.after hostOps0 (W0 m ρ c) (Proc.devRef .tc main_arg10) = _
  after_results

theorem at1_main_arg11 (c : Dev nD) : V1 m ρ c main_arg11 = (m ((c : Thread nD τ).loc main_arg11)) := by
  show StableHlo.after hostOps0 (W0 m ρ c) (Proc.devRef .tc main_arg11) = _
  after_results

theorem at1_main_arg12 (c : Dev nD) : V1 m ρ c main_arg12 = (m ((c : Thread nD τ).loc main_arg12)) := by
  show StableHlo.after hostOps0 (W0 m ρ c) (Proc.devRef .tc main_arg12) = _
  after_results

theorem at1_main_arg13 (c : Dev nD) : V1 m ρ c main_arg13 = (m ((c : Thread nD τ).loc main_arg13)) := by
  show StableHlo.after hostOps0 (W0 m ρ c) (Proc.devRef .tc main_arg13) = _
  after_results

theorem at1_src (c : Dev nD) : V1 m ρ c main_v1 = Cert.ReferenceIdeal.Read.val_main_v1 (F := Ideal) (m ((c : Thread nD τ).loc main_arg1)) := by
  show StableHlo.after hostOps0 (W0 m ρ c) (Proc.devRef .tc main_v1) = _
  after_results
  rfl

theorem at1_dst (c : Dev nD) : V1 m ρ c main_v3 = Cert.ReferenceIdeal.Read.val_main_v3 (F := Ideal) (m ((c : Thread nD τ).loc main_arg1)) := by
  show StableHlo.after hostOps0 (W0 m ρ c) (Proc.devRef .tc main_v3) = _
  after_results
  rfl

theorem at1_agg (c : Dev nD) : V1 m ρ c main_v13 = Cert.ReferenceIdeal.Net.agg128 (m ((c : Thread nD τ).loc main_arg0)) (m ((c : Thread nD τ).loc main_arg1)) := by
  show StableHlo.after hostOps0 (W0 m ρ c) (Proc.devRef .tc main_v13) = _
  after_results
  rfl

theorem at1_b1 (c : Dev nD) : V1 m ρ c main_v14 = Cert.ReferenceIdeal.Net.row (m ((c : Thread nD τ).loc main_arg3)) := by
  show StableHlo.after hostOps0 (W0 m ρ c) (Proc.devRef .tc main_v14) = _
  after_results
  exact row_of_reshape _

theorem at1_b2 (c : Dev nD) : V1 m ρ c main_v15 = Cert.ReferenceIdeal.Net.row (m ((c : Thread nD τ).loc main_arg5)) := by
  show StableHlo.after hostOps0 (W0 m ρ c) (Proc.devRef .tc main_v15) = _
  after_results
  exact row_of_reshape _

/-- The first region's output array: the first layer. -/
theorem out0 (c : Dev nD) : (dat0 (V1 m ρ) c).arrAt 6 cfg0.N = first m c := by
  rw [Cert.KernelIdeal.Region0.array_eq]
  unfold Cert.KernelIdeal.Region0.whole
  rw [at1_main_arg0 m ρ c, at1_agg m ρ c, at1_main_arg2 m ρ c, at1_b1 m ρ c, at1_main_arg4 m ρ c, at1_b2 m ρ c]
  rfl

/-! ## Leaving the first region -/

theorem at2_z (c : Dev nD) : W2 m ρ c (Proc.devRef .tc main_v16) = first m c :=
  (W2_arr m ρ c 6).trans (out0 m ρ c)

theorem at2_main_arg6 (c : Dev nD) : W2 m ρ c (Proc.devRef .tc main_arg6) = (m ((c : Thread nD τ).loc main_arg6)) :=
  (W2_of_ne m ρ c main_arg6 (by decide)).trans (at1_main_arg6 m ρ c)

theorem at2_main_arg7 (c : Dev nD) : W2 m ρ c (Proc.devRef .tc main_arg7) = (m ((c : Thread nD τ).loc main_arg7)) :=
  (W2_of_ne m ρ c main_arg7 (by decide)).trans (at1_main_arg7 m ρ c)

theorem at2_main_arg8 (c : Dev nD) : W2 m ρ c (Proc.devRef .tc main_arg8) = (m ((c : Thread nD τ).loc main_arg8)) :=
  (W2_of_ne m ρ c main_arg8 (by decide)).trans (at1_main_arg8 m ρ c)

theorem at2_main_arg9 (c : Dev nD) : W2 m ρ c (Proc.devRef .tc main_arg9) = (m ((c : Thread nD τ).loc main_arg9)) :=
  (W2_of_ne m ρ c main_arg9 (by decide)).trans (at1_main_arg9 m ρ c)

theorem at2_main_arg10 (c : Dev nD) : W2 m ρ c (Proc.devRef .tc main_arg10) = (m ((c : Thread nD τ).loc main_arg10)) :=
  (W2_of_ne m ρ c main_arg10 (by decide)).trans (at1_main_arg10 m ρ c)

theorem at2_main_arg11 (c : Dev nD) : W2 m ρ c (Proc.devRef .tc main_arg11) = (m ((c : Thread nD τ).loc main_arg11)) :=
  (W2_of_ne m ρ c main_arg11 (by decide)).trans (at1_main_arg11 m ρ c)

theorem at2_main_arg12 (c : Dev nD) : W2 m ρ c (Proc.devRef .tc main_arg12) = (m ((c : Thread nD τ).loc main_arg12)) :=
  (W2_of_ne m ρ c main_arg12 (by decide)).trans (at1_main_arg12 m ρ c)

theorem at2_main_arg13 (c : Dev nD) : W2 m ρ c (Proc.devRef .tc main_arg13) = (m ((c : Thread nD τ).loc main_arg13)) :=
  (W2_of_ne m ρ c main_arg13 (by decide)).trans (at1_main_arg13 m ρ c)

theorem at2_src (c : Dev nD) : W2 m ρ c (Proc.devRef .tc main_v1) = Cert.ReferenceIdeal.Read.val_main_v1 (F := Ideal) (m ((c : Thread nD τ).loc main_arg1)) :=
  (W2_of_ne m ρ c main_v1 (by decide)).trans (at1_src m ρ c)

theorem at2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (at1_dst m ρ c)

/-! ## Entering the second region -/

theorem at3_z (c : Dev nD) : V3 m ρ c main_v16 = first m c := by
  show StableHlo.after hostOps1 (W2 m ρ c) (Proc.devRef .tc main_v16) = _
  after_results
  exact at2_z m ρ c

theorem at3_agg (c : Dev nD) : V3 m ρ c main_v26 = Cert.ReferenceIdeal.Net.agg256 (first m c) (m ((c : Thread nD τ).loc main_arg1)) := by
  show StableHlo.after hostOps1 (W2 m ρ c) (Proc.devRef .tc main_v26) = _
  after_results
  rw [at2_src m ρ c, at2_dst m ρ c, at2_z m ρ c]
  rfl

theorem at3_b1 (c : Dev nD) : V3 m ρ c main_v27 = Cert.ReferenceIdeal.Net.row (m ((c : Thread nD τ).loc main_arg7)) := by
  show StableHlo.after hostOps1 (W2 m ρ c) (Proc.devRef .tc main_v27) = _
  after_results
  rw [at2_main_arg7 m ρ c]
  exact row_of_reshape _

theorem at3_b2 (c : Dev nD) : V3 m ρ c main_v28 = Cert.ReferenceIdeal.Net.row (m ((c : Thread nD τ).loc main_arg9)) := by
  show StableHlo.after hostOps1 (W2 m ρ c) (Proc.devRef .tc main_v28) = _
  after_results
  rw [at2_main_arg9 m ρ c]
  exact row_of_reshape _

theorem at3_main_arg6 (c : Dev nD) : V3 m ρ c main_arg6 = (m ((c : Thread nD τ).loc main_arg6)) := by
  show StableHlo.after hostOps1 (W2 m ρ c) (Proc.devRef .tc main_arg6) = _
  after_results
  exact at2_main_arg6 m ρ c

theorem at3_main_arg8 (c : Dev nD) : V3 m ρ c main_arg8 = (m ((c : Thread nD τ).loc main_arg8)) := by
  show StableHlo.after hostOps1 (W2 m ρ c) (Proc.devRef .tc main_arg8) = _
  after_results
  exact at2_main_arg8 m ρ c

theorem at3_main_arg10 (c : Dev nD) : V3 m ρ c main_arg10 = (m ((c : Thread nD τ).loc main_arg10)) := by
  show StableHlo.after hostOps1 (W2 m ρ c) (Proc.devRef .tc main_arg10) = _
  after_results
  exact at2_main_arg10 m ρ c

theorem at3_main_arg11 (c : Dev nD) : V3 m ρ c main_arg11 = (m ((c : Thread nD τ).loc main_arg11)) := by
  show StableHlo.after hostOps1 (W2 m ρ c) (Proc.devRef .tc main_arg11) = _
  after_results
  exact at2_main_arg11 m ρ c

theorem at3_main_arg12 (c : Dev nD) : V3 m ρ c main_arg12 = (m ((c : Thread nD τ).loc main_arg12)) := by
  show StableHlo.after hostOps1 (W2 m ρ c) (Proc.devRef .tc main_arg12) = _
  after_results
  exact at2_main_arg12 m ρ c

theorem at3_main_arg13 (c : Dev nD) : V3 m ρ c main_arg13 = (m ((c : Thread nD τ).loc main_arg13)) := by
  show StableHlo.after hostOps1 (W2 m ρ c) (Proc.devRef .tc main_arg13) = _
  after_results
  exact at2_main_arg13 m ρ c

theorem at3_src (c : Dev nD) : V3 m ρ c main_v1 = Cert.ReferenceIdeal.Read.val_main_v1 (F := Ideal) (m ((c : Thread nD τ).loc main_arg1)) := by
  show StableHlo.after hostOps1 (W2 m ρ c) (Proc.devRef .tc main_v1) = _
  after_results
  exact at2_src m ρ c

theorem at3_dst (c : Dev nD) : V3 m ρ c main_v3 = Cert.ReferenceIdeal.Read.val_main_v3 (F := Ideal) (m ((c : Thread nD τ).loc main_arg1)) := by
  show StableHlo.after hostOps1 (W2 m ρ c) (Proc.devRef .tc main_v3) = _
  after_results
  exact at2_dst m ρ c

/-- The second region's output array: the second layer. -/
theorem out1 (c : Dev nD) : (dat1 (V3 m ρ) c).arrAt 6 cfg1.N = second m c := by
  rw [Cert.KernelIdeal.Region1.array_eq]
  unfold Cert.KernelIdeal.Region1.whole
  rw [at3_z m ρ c, at3_agg m ρ c, at3_main_arg6 m ρ c, at3_b1 m ρ c, at3_main_arg8 m ρ c, at3_b2 m ρ c]
  rfl

/-! ## Leaving the second region -/

theorem at4_z (c : Dev nD) : W4 m ρ c (Proc.devRef .tc main_v29) = second m c :=
  (W4_arr m ρ c 6).trans (out1 m ρ c)

theorem at4_main_arg10 (c : Dev nD) : W4 m ρ c (Proc.devRef .tc main_arg10) = (m ((c : Thread nD τ).loc main_arg10)) :=
  (W4_of_ne m ρ c main_arg10 (by decide)).trans (at3_main_arg10 m ρ c)

theorem at4_main_arg11 (c : Dev nD) : W4 m ρ c (Proc.devRef .tc main_arg11) = (m ((c : Thread nD τ).loc main_arg11)) :=
  (W4_of_ne m ρ c main_arg11 (by decide)).trans (at3_main_arg11 m ρ c)

theorem at4_main_arg12 (c : Dev nD) : W4 m ρ c (Proc.devRef .tc main_arg12) = (m ((c : Thread nD τ).loc main_arg12)) :=
  (W4_of_ne m ρ c main_arg12 (by decide)).trans (at3_main_arg12 m ρ c)

theorem at4_main_arg13 (c : Dev nD) : W4 m ρ c (Proc.devRef .tc main_arg13) = (m ((c : Thread nD τ).loc main_arg13)) :=
  (W4_of_ne m ρ c main_arg13 (by decide)).trans (at3_main_arg13 m ρ c)

theorem at4_src (c : Dev nD) : W4 m ρ c (Proc.devRef .tc main_v1) = Cert.ReferenceIdeal.Read.val_main_v1 (F := Ideal) (m ((c : Thread nD τ).loc main_arg1)) :=
  (W4_of_ne m ρ c main_v1 (by decide)).trans (at3_src m ρ c)

theorem at4_dst (c : Dev nD) : W4 m ρ c (Proc.devRef .tc main_v3) = Cert.ReferenceIdeal.Read.val_main_v3 (F := Ideal) (m ((c : Thread nD τ).loc main_arg1)) :=
  (W4_of_ne m ρ c main_v3 (by decide)).trans (at3_dst m ρ c)

/-! ## Entering the third region -/

theorem at5_z (c : Dev nD) : V5 m ρ c main_v29 = second m c := by
  show StableHlo.after hostOps2 (W4 m ρ c) (Proc.devRef .tc main_v29) = _
  after_results
  exact at4_z m ρ c

theorem at5_agg (c : Dev nD) : V5 m ρ c main_v39 = Cert.ReferenceIdeal.Net.agg256 (second m c) (m ((c : Thread nD τ).loc main_arg1)) := by
  show StableHlo.after hostOps2 (W4 m ρ c) (Proc.devRef .tc main_v39) = _
  after_results
  rw [at4_src m ρ c, at4_dst m ρ c, at4_z m ρ c]
  rfl

theorem at5_b1 (c : Dev nD) : V5 m ρ c main_v40 = Cert.ReferenceIdeal.Net.row (m ((c : Thread nD τ).loc main_arg11)) := by
  show StableHlo.after hostOps2 (W4 m ρ c) (Proc.devRef .tc main_v40) = _
  after_results
  rw [at4_main_arg11 m ρ c]
  exact row_of_reshape _

theorem at5_b2 (c : Dev nD) : V5 m ρ c main_v41 = Cert.ReferenceIdeal.Net.row (m ((c : Thread nD τ).loc main_arg13)) := by
  show StableHlo.after hostOps2 (W4 m ρ c) (Proc.devRef .tc main_v41) = _
  after_results
  rw [at4_main_arg13 m ρ c]
  exact row_of_reshape _

theorem at5_main_arg10 (c : Dev nD) : V5 m ρ c main_arg10 = (m ((c : Thread nD τ).loc main_arg10)) := by
  show StableHlo.after hostOps2 (W4 m ρ c) (Proc.devRef .tc main_arg10) = _
  after_results
  exact at4_main_arg10 m ρ c

theorem at5_main_arg12 (c : Dev nD) : V5 m ρ c main_arg12 = (m ((c : Thread nD τ).loc main_arg12)) := by
  show StableHlo.after hostOps2 (W4 m ρ c) (Proc.devRef .tc main_arg12) = _
  after_results
  exact at4_main_arg12 m ρ c

/-- The third region's output array, the program's result: the network of the arguments. -/
theorem out2 (c : Dev nD) : (dat2 (V5 m ρ) c).arrAt 6 cfg2.N
    = Cert.ReferenceIdeal.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KernelIdeal.Region2.array_eq]
  unfold Cert.KernelIdeal.Region2.whole
  rw [at5_z m ρ c, at5_agg m ρ c, at5_main_arg10 m ρ c, at5_b1 m ρ c, at5_main_arg12 m ρ c, at5_b2 m ρ c]
  rfl

end Cert.KernelIdeal.Net

end
-- ==== Proof.lean ====
/-
  A three-layer graph network: the fused kernels against the plain reference, on the extended reals.

  Each layer takes the node features z (10000 nodes), sums into every node's row the rows of z at the sources of the edges
  ending at it (agg), and applies two dense stages to z + agg, each stage  x ↦ max (x·w + b) 0 . The reference computes a
  layer with two plain products over all 10000 rows. The kernel program computes agg on the host by the very same
  operations and runs the two stages fused in one kernel over a grid of five points, each point on 2000 rows, its
  operands narrowed to a shorter float format before each product (the identity on the extended reals) and each product
  taken into a zero accumulator. A stage's row depends only on the same row of its input, so the five blocks of rows are
  the rows of the whole; they tile the array. Walking the program's boundaries, its result is the reference network of
  its arguments (Proof/KernelNet.lean over the three region modules); the reference's result is the same network
  (Proof/RefNet.lean). No law of arithmetic beyond reading both spellings of a stage as one sum is used, and none that
  needs the inputs finite.
  The idealization rewrote no operation, so that conjunct is trivial; the kernel programs' frames and the reference's run
  are the generated modules'.
-/
import proofs.«147702_j18442589569879_1_alg».proof.Defs
import proofs.«147702_j18442589569879_1_alg».proof.Proof.Gen.Kernel
import proofs.«147702_j18442589569879_1_alg».proof.Proof.Gen.Kernel.Skeleton
import proofs.«147702_j18442589569879_1_alg».proof.Proof.Gen.Kernel.Launch
import proofs.«147702_j18442589569879_1_alg».proof.Proof.Gen.Kernel.Points
import proofs.«147702_j18442589569879_1_alg».proof.Proof.Gen.Kernel.Frame
import proofs.«147702_j18442589569879_1_alg».proof.Proof.Gen.KernelIdeal
import proofs.«147702_j18442589569879_1_alg».proof.Proof.Gen.KernelIdeal.Skeleton
import proofs.«147702_j18442589569879_1_alg».proof.Proof.Gen.KernelIdeal.Launch
import proofs.«147702_j18442589569879_1_alg».proof.Proof.Gen.KernelIdeal.Points
import proofs.«147702_j18442589569879_1_alg».proof.Proof.Gen.KernelIdeal.Frame
import proofs.«147702_j18442589569879_1_alg».proof.Proof.Gen.ReferenceIdeal
import proofs.«147702_j18442589569879_1_alg».proof.Proof.Gen.ReferenceIdeal.Run
import proofs.«147702_j18442589569879_1_alg».proof.Proof.Gen.ReferenceIdeal.Read
import proofs.«147702_j18442589569879_1_alg».proof.Proof.Gen.Pre_finite_inputs
import proofs.«147702_j18442589569879_1_alg».proof.Proof.KernelRun
import proofs.«147702_j18442589569879_1_alg».proof.Proof.KernelNet
import proofs.«147702_j18442589569879_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the (agreeing) arguments in their result arrays. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Net.out2 m ρ c), (h c).2⟩)
      (Cert.KernelIdeal.RunValue.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13⟩ := hagree c
    rw [(h c).1, Cert.ReferenceIdeal.Read.val_main_v66_eq, Cert.ReferenceIdeal.Net.result_eq,
      e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
